-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x312500 32) (main_arg2 : FVec F S256x256 .f32) (main_arg3 : FVec F S256 .f32) (main_arg4 : FVec F S256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S2000x256 : Shape := ⟨2, ![2000, 256]⟩
abbrev S50000 : Shape := ⟨1, ![50000]⟩
abbrev S1x312500 : Shape := ⟨2, ![1, 312500]⟩
abbrev S312500 : Shape := ⟨1, ![312500]⟩
abbrev S362500 : Shape := ⟨1, ![362500]⟩
abbrev S_ : Shape := ⟨0, ![]⟩
abbrev S362500x1 : Shape := ⟨2, ![362500, 1]⟩
abbrev S362500x256 : Shape := ⟨2, ![362500, 256]⟩
abbrev S1x256 : Shape := ⟨2, ![1, 256]⟩
abbrev S2000 : Shape := ⟨1, ![2000]⟩
abbrev S2000x1 : Shape := ⟨2, ![2000, 1]⟩

abbrev nBuf : Space → Nat
  | .hbm => 70
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x312500, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S50000x256, .f32⟩
  | .hbm, ⟨8, _⟩ => ⟨S50000, .i32⟩
  | .hbm, ⟨9, _⟩ => ⟨S1x312500, .i32⟩
  | .hbm, ⟨10, _⟩ => ⟨S312500, .i32⟩
  | .hbm, ⟨11, _⟩ => ⟨S362500, .i32⟩
  | .hbm, ⟨12, _⟩ => ⟨S1x312500, .i32⟩
  | .hbm, ⟨13, _⟩ => ⟨S312500, .i32⟩
  | .hbm, ⟨14, _⟩ => ⟨S362500, .i32⟩
  | .hbm, ⟨15, _⟩ => ⟨S_, .f32⟩
  | .hbm, ⟨16, _⟩ => ⟨S362500, .f32⟩
  | .hbm, ⟨17, _⟩ => ⟨S_, .f32⟩
  | .hbm, ⟨18, _⟩ => ⟨S50000, .f32⟩
  | .hbm, ⟨19, _⟩ => ⟨S362500x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S362500, .i32⟩
  | .hbm, ⟨31, _⟩ => ⟨S362500, .i1⟩
  | .hbm, ⟨32, _⟩ => ⟨S_, .i32⟩
  | .hbm, ⟨33, _⟩ => ⟨S362500, .i32⟩
  | .hbm, ⟨34, _⟩ => ⟨S362500, .i32⟩
  | .hbm, ⟨35, _⟩ => ⟨S362500, .i32⟩
  | .hbm, ⟨36, _⟩ => ⟨S362500x1, .i32⟩
  | .hbm, ⟨37, _⟩ => ⟨S362500, .f32⟩
  | .hbm, ⟨38, _⟩ => ⟨S_, .i32⟩
  | .hbm, ⟨39, _⟩ => ⟨S362500, .i32⟩
  | .hbm, ⟨40, _⟩ => ⟨S362500, .i1⟩
  | .hbm, ⟨41, _⟩ => ⟨S_, .i32⟩
  | .hbm, ⟨42, _⟩ => ⟨S362500, .i32⟩
  | .hbm, ⟨43, _⟩ => ⟨S362500, .i32⟩
  | .hbm, ⟨44, _⟩ => ⟨S362500, .i32⟩
  | .hbm, ⟨45, _⟩ => ⟨S362500x1, .i32⟩
  | .hbm, ⟨46, _⟩ => ⟨S362500, .f32⟩
  | .hbm, ⟨47, _⟩ => ⟨S362500, .f32⟩
  | .hbm, ⟨48, _⟩ => ⟨S362500x1, .f32⟩
  | .hbm, ⟨49, _⟩ => ⟨S_, .i32⟩
  | .hbm, ⟨50, _⟩ => ⟨S362500, .i32⟩
  | .hbm, ⟨51, _⟩ => ⟨S362500, .i1⟩
  | .hbm, ⟨52, _⟩ => ⟨S_, .i32⟩
  | .hbm, ⟨53, _⟩ => ⟨S362500, .i32⟩
  | .hbm, ⟨54, _⟩ => ⟨S362500, .i32⟩
  | .hbm, ⟨55, _⟩ => ⟨S362500, .i32⟩
  | .hbm, ⟨56, _⟩ => ⟨S362500x1, .i32⟩
  | .hbm, ⟨57, _⟩ => ⟨S362500x256, .f32⟩
  | .hbm, ⟨58, _⟩ => ⟨S362500x256, .f32⟩
  | .hbm, ⟨59, _⟩ => ⟨S362500x256, .f32⟩
  | .hbm, ⟨60, _⟩ => ⟨S_, .f32⟩
  | .hbm, ⟨61, _⟩ => ⟨S50000x256, .f32⟩
  | .hbm, ⟨62, _⟩ => ⟨S362500x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S1x256, .f32⟩
  | .hbm, ⟨69, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S256x256_S256x256_1_0 : S256x256.Transposes [1, 0] S256x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2x312500_S1x312500_0_0 : S2x312500.Slices ![0, 0] S1x312500
  shapeCasts_S1x312500_S312500 : S1x312500.ShapeCasts S312500
  concatenates_S312500_S50000_S362500_d0 : Shape.Concatenates [S312500, S50000] S362500 0
  slices_S2x312500_S1x312500_1_0 : S2x312500.Slices ![1, 0] S1x312500
  bcast_S_S362500 : S_.BroadcastsInDim S362500 (![] : Fin 0 → Fin S362500.rank)
  bcast_S_S50000 : S_.BroadcastsInDim S50000 (![] : Fin 0 → Fin S50000.rank)
  bcast_S362500_S362500x1_0 : S362500.BroadcastsInDim S362500x1 (![0] : Fin 1 → Fin S362500x1.rank)
  bcast_S362500x1_S362500x256_0_1 : S362500x1.BroadcastsInDim S362500x256 (![0, 1] : Fin 2 → Fin S362500x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S256_S1x256 : S256.ShapeCasts S1x256
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S256x256_S2000x256_1_0_0_1_n_n_wf : DotDims.WF S2000x256 S256x256 S2000x256 [1] [0] [0] [1] [] []
  scatter_S50000_S362500x1_S362500_n_0_0_1_wf : ScatterDims.WF S50000 S362500x1 S362500 [] [0] [0] 1
  gather_S50000_S362500x1_S362500_n_0_n_n_0_1_1_wf : GatherDims.WF S50000 S362500x1 S362500 [] [0] [] [0] [] 1 ![1]
  gather_S50000x256_S362500x1_S362500x256_1_0_n_n_0_1_1256_wf : GatherDims.WF S50000x256 S362500x1 S362500x256 [1] [0] [] [0] [] 1 ![1, 256]
  scatter_S50000x256_S362500x1_S362500x256_1_0_0_1_wf : ScatterDims.WF S50000x256 S362500x1 S362500x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S50000_S362500x1_S362500_n_0_0_1 : ScatterDims S50000 S362500x1 S362500 where
  updateWindowDims := []
  insertedWindowDims := [0]
  scatterDimsToOperandDims := [0]
  indexVectorDim := 1
  wf := scatter_S50000_S362500x1_S362500_n_0_0_1_wf
def gather_S50000_S362500x1_S362500_n_0_n_n_0_1_1 : GatherDims S50000 S362500x1 S362500 where
  offsetDims := []
  collapsedSliceDims := [0]
  operandBatchingDims := []
  startIndicesBatchingDims := []
  startIndexMap := [0]
  indexVectorDim := 1
  sliceSizes := ![1]
  wf := gather_S50000_S362500x1_S362500_n_0_n_n_0_1_1_wf
def gather_S50000x256_S362500x1_S362500x256_1_0_n_n_0_1_1256 : GatherDims S50000x256 S362500x1 S362500x256 where
  offsetDims := [1]
  collapsedSliceDims := [0]
  operandBatchingDims := []
  startIndicesBatchingDims := []
  startIndexMap := [0]
  indexVectorDim := 1
  sliceSizes := ![1, 256]
  wf := gather_S50000x256_S362500x1_S362500x256_1_0_n_n_0_1_1256_wf
def scatter_S50000x256_S362500x1_S362500x256_1_0_0_1 : ScatterDims S50000x256 S362500x1 S362500x256 where
  updateWindowDims := [1]
  insertedWindowDims := [0]
  scatterDimsToOperandDims := [0]
  indexVectorDim := 1
  wf := scatter_S50000x256_S362500x1_S362500x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x312500 : Shape := ⟨2, ![2, 312500]⟩
abbrev S256x256 : Shape := ⟨2, ![256, 256]⟩
abbrev S256 : Shape := ⟨1, ![256]⟩
abbrev S50000 : Shape := ⟨1, ![50000]⟩
abbrev S1x312500 : Shape := ⟨2, ![1, 312500]⟩
abbrev S312500 : Shape := ⟨1, ![312500]⟩
abbrev S362500 : Shape := ⟨1, ![362500]⟩
abbrev S_ : Shape := ⟨0, ![]⟩
abbrev S362500x1 : Shape := ⟨2, ![362500, 1]⟩
abbrev S362500x256 : Shape := ⟨2, ![362500, 256]⟩
abbrev S1x256 : Shape := ⟨2, ![1, 256]⟩
abbrev S50000x1 : Shape := ⟨2, ![50000, 1]⟩

abbrev nBuf : Space → Nat
  | .hbm => 99
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x312500, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S50000, .i32⟩
  | .hbm, ⟨7, _⟩ => ⟨S1x312500, .i32⟩
  | .hbm, ⟨8, _⟩ => ⟨S312500, .i32⟩
  | .hbm, ⟨9, _⟩ => ⟨S362500, .i32⟩
  | .hbm, ⟨10, _⟩ => ⟨S1x312500, .i32⟩
  | .hbm, ⟨11, _⟩ => ⟨S312500, .i32⟩
  | .hbm, ⟨12, _⟩ => ⟨S362500, .i32⟩
  | .hbm, ⟨13, _⟩ => ⟨S_, .f32⟩
  | .hbm, ⟨14, _⟩ => ⟨S362500, .f32⟩
  | .hbm, ⟨15, _⟩ => ⟨S_, .f32⟩
  | .hbm, ⟨16, _⟩ => ⟨S50000, .f32⟩
  | .hbm, ⟨17, _⟩ => ⟨S362500x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S362500, .i32⟩
  | .hbm, ⟨29, _⟩ => ⟨S362500, .i1⟩
  | .hbm, ⟨30, _⟩ => ⟨S_, .i32⟩
  | .hbm, ⟨31, _⟩ => ⟨S362500, .i32⟩
  | .hbm, ⟨32, _⟩ => ⟨S362500, .i32⟩
  | .hbm, ⟨33, _⟩ => ⟨S362500, .i32⟩
  | .hbm, ⟨34, _⟩ => ⟨S362500x1, .i32⟩
  | .hbm, ⟨35, _⟩ => ⟨S362500, .f32⟩
  | .hbm, ⟨36, _⟩ => ⟨S_, .i32⟩
  | .hbm, ⟨37, _⟩ => ⟨S362500, .i32⟩
  | .hbm, ⟨38, _⟩ => ⟨S362500, .i1⟩
  | .hbm, ⟨39, _⟩ => ⟨S_, .i32⟩
  | .hbm, ⟨40, _⟩ => ⟨S362500, .i32⟩
  | .hbm, ⟨41, _⟩ => ⟨S362500, .i32⟩
  | .hbm, ⟨42, _⟩ => ⟨S362500, .i32⟩
  | .hbm, ⟨43, _⟩ => ⟨S362500x1, .i32⟩
  | .hbm, ⟨44, _⟩ => ⟨S362500, .f32⟩
  | .hbm, ⟨45, _⟩ => ⟨S362500, .f32⟩
  | .hbm, ⟨46, _⟩ => ⟨S256x256, .f32⟩
  | .hbm, ⟨47, _⟩ => ⟨S50000x256, .f32⟩
  | .hbm, ⟨48, _⟩ => ⟨S362500x1, .f32⟩
  | .hbm, ⟨49, _⟩ => ⟨S_, .i32⟩
  | .hbm, ⟨50, _⟩ => ⟨S362500, .i32⟩
  | .hbm, ⟨51, _⟩ => ⟨S362500, .i1⟩
  | .hbm, ⟨52, _⟩ => ⟨S_, .i32⟩
  | .hbm, ⟨53, _⟩ => ⟨S362500, .i32⟩
  | .hbm, ⟨54, _⟩ => ⟨S362500, .i32⟩
  | .hbm, ⟨55, _⟩ => ⟨S362500, .i32⟩
  | .hbm, ⟨56, _⟩ => ⟨S362500x1, .i32⟩
  | .hbm, ⟨57, _⟩ => ⟨S362500x256, .f32⟩
  | .hbm, ⟨58, _⟩ => ⟨S362500x256, .f32⟩
  | .hbm, ⟨59, _⟩ => ⟨S362500x256, .f32⟩
  | .hbm, ⟨60, _⟩ => ⟨S_, .f32⟩
  | .hbm, ⟨61, _⟩ => ⟨S50000x256, .f32⟩
  | .hbm, ⟨62, _⟩ => ⟨S362500x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x1, .f32⟩
  | .hbm, ⟨88, _⟩ => ⟨S50000x256, .f32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S50000x256, .f32⟩
  | .hbm, ⟨98, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x312500_S1x312500_0_0 : S2x312500.Slices ![0, 0] S1x312500
  shapeCasts_S1x312500_S312500 : S1x312500.ShapeCasts S312500
  concatenates_S312500_S50000_S362500_d0 : Shape.Concatenates [S312500, S50000] S362500 0
  slices_S2x312500_S1x312500_1_0 : S2x312500.Slices ![1, 0] S1x312500
  bcast_S_S362500 : S_.BroadcastsInDim S362500 (![] : Fin 0 → Fin S362500.rank)
  bcast_S_S50000 : S_.BroadcastsInDim S50000 (![] : Fin 0 → Fin S50000.rank)
  bcast_S362500_S362500x1_0 : S362500.BroadcastsInDim S362500x1 (![0] : Fin 1 → Fin S362500x1.rank)
  transposes_S256x256_S256x256_1_0 : S256x256.Transposes [1, 0] S256x256
  bcast_S362500x1_S362500x256_0_1 : S362500x1.BroadcastsInDim S362500x256 (![0, 1] : Fin 2 → Fin S362500x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  scatter_S50000_S362500x1_S362500_n_0_0_1_wf : ScatterDims.WF S50000 S362500x1 S362500 [] [0] [0] 1
  gather_S50000_S362500x1_S362500_n_0_n_n_0_1_1_wf : GatherDims.WF S50000 S362500x1 S362500 [] [0] [] [0] [] 1 ![1]
  dot_S50000x256_S256x256_S50000x256_1_0_0_1_n_n_wf : DotDims.WF S50000x256 S256x256 S50000x256 [1] [0] [0] [1] [] []
  gather_S50000x256_S362500x1_S362500x256_1_0_n_n_0_1_1256_wf : GatherDims.WF S50000x256 S362500x1 S362500x256 [1] [0] [] [0] [] 1 ![1, 256]
  scatter_S50000x256_S362500x1_S362500x256_1_0_0_1_wf : ScatterDims.WF S50000x256 S362500x1 S362500x256 [1] [0] [0] 1

variable [Facts₀]

def scatter_S50000_S362500x1_S362500_n_0_0_1 : ScatterDims S50000 S362500x1 S362500 where
  updateWindowDims := []
  insertedWindowDims := [0]
  scatterDimsToOperandDims := [0]
  indexVectorDim := 1
  wf := scatter_S50000_S362500x1_S362500_n_0_0_1_wf
def gather_S50000_S362500x1_S362500_n_0_n_n_0_1_1 : GatherDims S50000 S362500x1 S362500 where
  offsetDims := []
  collapsedSliceDims := [0]
  operandBatchingDims := []
  startIndicesBatchingDims := []
  startIndexMap := [0]
  indexVectorDim := 1
  sliceSizes := ![1]
  wf := gather_S50000_S362500x1_S362500_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S362500x1_S362500x256_1_0_n_n_0_1_1256 : GatherDims S50000x256 S362500x1 S362500x256 where
  offsetDims := [1]
  collapsedSliceDims := [0]
  operandBatchingDims := []
  startIndicesBatchingDims := []
  startIndexMap := [0]
  indexVectorDim := 1
  sliceSizes := ![1, 256]
  wf := gather_S50000x256_S362500x1_S362500x256_1_0_n_n_0_1_1256_wf
def scatter_S50000x256_S362500x1_S362500x256_1_0_0_1 : ScatterDims S50000x256 S362500x1 S362500x256 where
  updateWindowDims := [1]
  insertedWindowDims := [0]
  scatterDimsToOperandDims := [0]
  indexVectorDim := 1
  wf := scatter_S50000x256_S362500x1_S362500x256_1_0_0_1_wf

class Facts : Prop extends Facts₀ where

variable [Facts]
-- ==== Proof.MatmulBody.lean ====
/-
  The first kernel's body at an entry.  The body loads a [2000, 256] block of the features and the whole [256, 256]
  transposed weight matrix, rounds both to bf16 — the identity on the extended reals — and multiplies them into a zero
  accumulator: entry (p, q) of what it stores is the sum over k of X(p, k) · W(k, q).
-/
import proofs.«160950_j4956392259615_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

theorem lhs0 (i : S2000x256.Idx) (c : dot_S2000x256_S256x256_S2000x256_1_0_0_1_n_n.contr.Idx) : (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1 (i : S2000x256.Idx) (c : dot_S2000x256_S256x256_S2000x256_1_0_0_1_n_n.contr.Idx) : (dot_S2000x256_S256x256_S2000x256_1_0_0_1_n_n.lhsIdx i c 1).val = (c ⟨0, by decide⟩).val :=
  dot_S2000x256_S256x256_S2000x256_1_0_0_1_n_n.lhsIdx_val_of_single rfl i c
theorem rhs0 (i : S2000x256.Idx) (c : dot_S2000x256_S256x256_S2000x256_1_0_0_1_n_n.contr.Idx) : (dot_S2000x256_S256x256_S2000x256_1_0_0_1_n_n.rhsIdx i c 0).val = (c ⟨0, by decide⟩).val :=
  dot_S2000x256_S256x256_S2000x256_1_0_0_1_n_n.rhsIdx_val_of_single rfl i c
theorem rhs1 (i : S2000x256.Idx) (c : dot_S2000x256_S256x256_S2000x256_1_0_0_1_n_n.contr.Idx) : (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (p, q) of the stored block: row p of the loaded features against column q of the loaded weights. -/
theorem mm_payload (X : Vec Ideal S2000x256 .f32) (W : Vec Ideal S256x256 .f32) (p : Fin 2000) (q : Fin 256) :
    k0_pay1 (F := Ideal) X W (ix2 p q) = ∑ k : Fin 256, X (ix2 p k) * W (ix2 k q) := by
  unfold k0_pay1
  simp only [shapeCast_self]
  refine (Ideal.matmul_constant_zero_apply dot_S2000x256_S256x256_S2000x256_1_0_0_1_n_n none _ _ (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs0 _ _
    | ⟨1, _⟩ => exact (lhs1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs0 _ _).trans hk
    | ⟨1, _⟩ => exact rhs1 _ _)
  show X (dot_S2000x256_S256x256_S2000x256_1_0_0_1_n_n.lhsIdx (ix2 p q) ((ValueIdx.contrEquiv1 dot_S2000x256_S256x256_S2000x256_1_0_0_1_n_n 256 rfl rfl).symm k)) * W (dot_S2000x256_S256x256_S2000x256_1_0_0_1_n_n.rhsIdx (ix2 p q) ((ValueIdx.contrEquiv1 dot_S2000x256_S256x256_S2000x256_1_0_0_1_n_n 256 rfl rfl).symm k)) = _
  rw [el, er]

end Cert.KernelIdeal.Body
end
-- ==== Proof.ProductArray.lean ====
/-
  From blocks to the array, first region.  At each of its 25 grid points the matrix-product kernel reads rows
  2000·t … 2000·t + 1999 of the features and the whole transposed weight matrix and writes the same rows of its result:
  every block written is the restriction of one function of the two arrays the region is entered with — their product,
  entry (r, q) the sum over k of x(r, k) · w(k, q) — and the 25 blocks tile the [50000, 256] result, which therefore
  ends holding that product.
-/
import proofs.«160950_j4956392259615_1_alg».proof.Proof.Gen.KernelIdeal.Frame
import proofs.«160950_j4956392259615_1_alg».proof.Proof.MatmulBody
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The product of a [50000, 256] array with a [256, 256] one, entry by entry. -/
def prod (x : S50000x256.Idx → EReal) (w : S256x256.Idx → EReal) : S50000x256.Idx → EReal :=
  fun i => ∑ k : Fin 256, x (ix2 (⟨(i 0).val, (i 0).isLt⟩ : Fin 50000) k) * w (ix2 k (⟨(i 1).val, (i 1).isLt⟩ : Fin 256))

theorem prod_ix2 (x : S50000x256.Idx → EReal) (w : S256x256.Idx → EReal) (r : Fin 50000) (q : Fin 256) :
    prod x w (ix2 r q) = ∑ k : Fin 256, x (ix2 r k) * w (ix2 k q) := rfl

/-- The block indices of the three windows over the grid of 25 points: the feature and result windows move down the
    rows with the point, the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_prod (c : Dev nD) (t : Fin cfg0.N) :
    (dat0 V c).flushed 2 t = ((cfg0.win 2).blk t).view.read (Elt Ideal) (prod (V c main_arg0) (V c main_v0)) := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x256) hz0]
  obtain ⟨e0, e1, e2, e3, e4, e5⟩ := idx_facts0 t
  have ht : t.val < 25 := by have := t.isLt; have hN : cfg0.N = 25 := N_0; omega
  show (k0_pay1 (iblk0 V c 0 t) (iblk0 V c 1 t) : S2000x256.Idx → EReal)
    = fun y : S2000x256.Idx => prod (V c main_arg0) (V c main_v0) (((cfg0.win 2).blk t).view.emb y)
  funext y
  obtain ⟨p, q, rfl⟩ : ∃ (p : Fin 2000) (q : Fin 256), y = ix2 p q := ⟨y 0, y 1, eq_ix2 y⟩
  refine (Body.mm_payload _ _ p q).trans ?_
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 256 + 1 * q.val = q.val; omega
  rw [hemb, prod_ix2]
  refine Finset.sum_congr rfl fun k _ => ?_
  have h0 : (iblk0 V c 0 t : S2000x256.Idx → EReal) (ix2 p k) = V c main_arg0 (ix2 (⟨t.val * 2000 + p.val, by omega⟩ : Fin 50000) k) := by
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : (iblk0 V c 1 t : S256x256.Idx → EReal) (ix2 k q) = V c main_v0 (ix2 k q) := by
    show V c main_v0 (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * q.val = q.val; omega
  rw [h0, h1]

/-- An index of the result array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v1).slice (win0_2.rect t)).set ↔ _
  rw [View.set_slice_whole, Rect.mem_set_unit]
  exact Iff.rfl

/-- Row `r` lies in the block of point `r / 2000`: the 25 blocks tile the array. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e0, e1, e2, e3, e4, e5⟩ := idx_facts0 t
  have htv : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array of the first region after its 25 points: the product of the two arrays it was entered with. -/
theorem final_prod (c : Dev nD) : (dat0 V c).arrAt 2 cfg0.N = prod (V c main_arg0) (V c main_v0) :=
  (dat0 V c).arrAt_eq_of_cover 2 (prod (V c main_arg0) (V c main_v0)) (fun t _ => flushed_prod V c t) cover0

end Cert.KernelIdeal.Blocks
end
-- ==== Proof.LibKeepdims.lean ====
/-
  Layout operations a keepdims reduction meets, read at an index written by coordinates: a vector cast to a one-column
  matrix, a one-column matrix broadcast along its rows, a vector seen as a [1, 1, a] block and back, and a load through a
  unit-stride rectangle that offsets only the last axis of a rank-3 block.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` block cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a]` vector cast to `[1, 1, a]` reads, at `(u, v, i)`, the operand at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A load through the unit-stride rectangle of sizes `[n0, n1, m]` at offsets `[0, 0, o]` of an `[n0, n1, n2]` block
    reads, at `(a, b, j)`, the block at `(a, b, o + j)`. -/
theorem ld_last3_apply {Val : EltTy → Type} {e : EltTy} {n0 n1 n2 m : ℕ} (o : ℕ) (X : (⟨3, ![n0, n1, n2]⟩ : Shape).Idx → Val e)
    (inb : ∀ a, (![0, 0, o] : Fin 3 → ℕ) a + (![n0, n1, m] : Fin 3 → ℕ) a ≤ (⟨3, ![n0, n1, n2]⟩ : Shape).size a)
    (a : Fin n0) (b : Fin n1) (j : Fin m) (k : Fin n2) (hk : k.val = o + j.val) :
    View.ld X (Rect.unit (s := ⟨3, ![n0, n1, n2]⟩) ![0, 0, o] ![n0, n1, m] inb) (ix3 a b j) = X (ix3 a b k) := by
  show X _ = X _
  refine congrArg X (funext fun ax => Fin.ext ?_)
  match ax with
  | ⟨0, _⟩ => show 0 + 1 * a.val = a.val; omega
  | ⟨1, _⟩ => show 0 + 1 * b.val = b.val; omega
  | ⟨2, _⟩ => show o + 1 * j.val = k.val; omega

end Idealize.ShloMosaic.Keepdims
-- ==== Proof.LibRowNorm.lean ====
/-
  Layer normalisation of one row, entry by entry, on the extended reals: the row's mean is its sum divided by a
  constant, its (biased, two-pass) variance the sum of the squared deviations from that mean divided by the same
  constant, and an entry is centred, multiplied by the reciprocal square root of the variance plus a constant,
  scaled, shifted and finally cut off below at a floor.  The operations are the exact ones (`Ideal.div`,
  `Ideal.rsqrt`); nothing here assumes the entries finite.
-/
import Idealize.ShloMosaic.PureOps.Ideal

noncomputable section

namespace Idealize.ShloMosaic.RowNorm

open Idealize.ShloMosaic

variable {n : ℕ}

/-- The mean of a row: its sum divided by `den`. -/
def mean (den : EReal) (row : Fin n → EReal) : EReal := Ideal.div (∑ k, row k) den

/-- The variance of a row about its mean: the sum of the squared deviations divided by `den`. -/
def var (den : EReal) (row : Fin n → EReal) : EReal :=
  Ideal.div (∑ k, (row k - mean den row) * (row k - mean den row)) den

/-- The entry `x` of a row normalised: centred at the row's mean, multiplied by `rsqrt (variance + eps)`, scaled by `g`,
    shifted by `b`, and cut off below at `lo`. -/
def entry (den eps lo : EReal) (row : Fin n → EReal) (x g b : EReal) : EReal :=
  max ((x - mean den row) * Ideal.rsqrt (var den row + eps) * g + b) lo

end Idealize.ShloMosaic.RowNorm

end
-- ==== Proof.NormBody.lean ====
/-
  The second kernel's body at an entry.  The body loads a [2000, 256] block X of the aggregated features and the
  [1, 256] scale and shift rows; per row it takes the lane sum divided by 256 as the mean, the lane sum of the squared
  deviations divided by 256 as the variance, and stores max(((x − mean) · rsqrt(variance + ε)) · scale + shift, 0):
  entry (p, q) of what it stores is the layer-normalised, rectified entry of row p of X (RowNorm.entry).
-/
import proofs.«160950_j4956392259615_1_alg».proof.Proof.Gen.KernelIdeal.Skeleton
import proofs.«160950_j4956392259615_1_alg».proof.Proof.LibKeepdims
import proofs.«160950_j4956392259615_1_alg».proof.Proof.LibRowNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- A lane sum of a [2000, 256] block, read at row `p`: the sum of the row's 256 entries. -/
theorem rowsum_apply (Y : FVec Ideal S2000x256 .f32) (hφ : FTy.f32 = FTy.f32 ∨ FTy.f32 = FTy.bf16) (hacc : (0x00000000#32 : BitVec 32) = 0x00000000#32)
    (p : Fin 2000) :
    multiReduction .add [1] S2000 Y 0x00000000#32 reduces_S2000x256_S2000 hφ hacc (ix1 p) = ∑ k : Fin 256, Y (ix2 p k) := by
  refine (Ideal.multiReduction_add_single Y 0x00000000#32 reduces_S2000x256_S2000 hφ hacc (ix1 p)).trans ?_
  refine Finset.sum_congr rfl fun k _ => ?_
  exact congrArg Y (funext fun a => Fin.ext (by match a with | ⟨0, _⟩ => rfl | ⟨1, _⟩ => rfl))

/-- A reciprocal square root of a vector, read at an index. -/
theorem rsqrt_apply {s : Shape} (v : FVec Ideal s .f32) (i : s.Idx) : rsqrt v i = Ideal.rsqrt (v i) := rfl

/-- Entry (p, q) of the stored block: the normalised entry of row p of the loaded block, with the loaded scale and shift at column q. -/
theorem ln_payload (X : Vec Ideal S2000x256 .f32) (G B : Vec Ideal S1x256 .f32) (p : Fin 2000) (q : Fin 256) :
    k1_pay1 (F := Ideal) X G B (ix2 p q)
      = RowNorm.entry (Ideal.ofBits .f32 0x43800000#32) (Ideal.ofBits .f32 0x3727C5AC#32) (Ideal.ofBits .f32 0x00000000#32)
          (fun k : Fin 256 => X (ix2 p k)) (X (ix2 p q)) (G (ix2 (0 : Fin 1) q)) (B (ix2 (0 : Fin 1) q)) := by
  unfold k1_pay1
  simp only [shapeCast_self]
  simp only [maximumf_apply, addf_apply, mulf_apply, subf_apply, divf_apply, broadcast_apply, rsqrt_apply,
    Keepdims.broadcastTo_a1_ab_apply, broadcastTo_1b_ab_apply, Keepdims.shapeCast_a_a1_apply, rowsum_apply]
  rw [rowsum_apply, rowsum_apply]
  simp only [mulf_apply, subf_apply, divf_apply, broadcast_apply,
    Keepdims.broadcastTo_a1_ab_apply, Keepdims.shapeCast_a_a1_apply]
  rw [rowsum_apply]
  rfl

end Cert.KernelIdeal.Body
end
-- ==== Proof.NormArray.lean ====
/-
  From blocks to the array, second region.  At each of its 25 grid points the normalisation kernel reads rows
  2000·t … 2000·t + 1999 of the aggregated features and the [1, 256] scale and shift rows and writes the same rows of
  the result: every block written is the restriction of one function of the three arrays the region is entered with —
  each row layer-normalised, scaled, shifted and rectified — and the 25 blocks tile the [50000, 256] result.
-/
import proofs.«160950_j4956392259615_1_alg».proof.Proof.Gen.KernelIdeal.Frame
import proofs.«160950_j4956392259615_1_alg».proof.Proof.NormBody
import proofs.«160950_j4956392259615_1_alg».proof.Proof.LibRowNorm
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- Layer normalisation and rectification of every row of a [50000, 256] array, with [1, 256] scale and shift rows. -/
def norm (A : S50000x256.Idx → EReal) (g b : S1x256.Idx → EReal) : S50000x256.Idx → EReal :=
  fun i => RowNorm.entry (Ideal.ofBits .f32 0x43800000#32) (Ideal.ofBits .f32 0x3727C5AC#32) (Ideal.ofBits .f32 0x00000000#32)
    (fun k : Fin 256 => A (ix2 (⟨(i 0).val, (i 0).isLt⟩ : Fin 50000) k)) (A i)
    (g (ix2 (0 : Fin 1) (⟨(i 1).val, (i 1).isLt⟩ : Fin 256))) (b (ix2 (0 : Fin 1) (⟨(i 1).val, (i 1).isLt⟩ : Fin 256)))

theorem norm_ix2 (A : S50000x256.Idx → EReal) (g b : S1x256.Idx → EReal) (r : Fin 50000) (q : Fin 256) :
    norm A g b (ix2 r q) = RowNorm.entry (Ideal.ofBits .f32 0x43800000#32) (Ideal.ofBits .f32 0x3727C5AC#32) (Ideal.ofBits .f32 0x00000000#32)
      (fun k : Fin 256 => A (ix2 r k)) (A (ix2 r q)) (g (ix2 (0 : Fin 1) q)) (b (ix2 (0 : Fin 1) q)) := rfl

/-- The block indices of the four windows over the grid of 25 points: the feature and result windows move down the
    rows with the point, the scale and shift windows stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the normalised array of the three arrays as the region finds them. -/
theorem flushed_norm (c : Dev nD) (t : Fin cfg1.N) :
    (dat1 V c).flushed 3 t = ((cfg1.win 3).blk t).view.read (Elt Ideal) (norm (V c main_v47) (V c main_v48) (V c main_v49)) := by
  show (cfg1.win 3).cut (grid1.coords t) ((dat1 V c).after 3 t) = _
  rw [after1_3]
  unfold out1_3
  rw [View.canon_unit_zero hz1]
  simp only [View.ld_unit_zero (S := S2000x256) hz1, View.ld_unit_zero (S := S1x256) hz1]
  obtain ⟨e0, e1, e2, e3, e4, e5, e6, e7⟩ := idx_facts1 t
  have ht : t.val < 25 := by have := t.isLt; have hN : cfg1.N = 25 := N_1; omega
  show (k1_pay1 (iblk1 V c 0 t) (iblk1 V c 1 t) (iblk1 V c 2 t) : S2000x256.Idx → EReal)
    = fun y : S2000x256.Idx => norm (V c main_v47) (V c main_v48) (V c main_v49) (((cfg1.win 3).blk t).view.emb y)
  funext y
  obtain ⟨p, q, rfl⟩ : ∃ (p : Fin 2000) (q : Fin 256), y = ix2 p q := ⟨y 0, y 1, eq_ix2 y⟩
  refine (Body.ln_payload _ _ _ p q).trans ?_
  have hemb : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 256 + 1 * q.val = q.val; omega
  rw [hemb, norm_ix2]
  have h0 : ∀ k : Fin 256, (iblk1 V c 0 t : S2000x256.Idx → EReal) (ix2 p k) = V c main_v47 (ix2 (⟨t.val * 2000 + p.val, by omega⟩ : Fin 50000) k) := fun k => by
    show V c main_v47 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : (iblk1 V c 1 t : S1x256.Idx → EReal) (ix2 (0 : Fin 1) q) = V c main_v48 (ix2 (0 : Fin 1) q) := by
    show V c main_v48 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * q.val = q.val; omega
  have h2 : (iblk1 V c 2 t : S1x256.Idx → EReal) (ix2 (0 : Fin 1) q) = V c main_v49 (ix2 (0 : Fin 1) q) := by
    show V c main_v49 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = q.val; omega
  rw [h1, h2, h0 q, funext h0]

/-- An index of the result array is in point `t`'s block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v50).slice (win1_3.rect t)).set ↔ _
  rw [View.set_slice_whole, Rect.mem_set_unit]
  exact Iff.rfl

/-- Row `r` lies in the block of point `r / 2000`: the 25 blocks tile the array. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e0, e1, e2, e3, e4, e5, e6, e7⟩ := idx_facts1 t
  have htv : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The result array of the second region after its 25 points: the normalised array of the three it was entered with. -/
theorem final_norm (c : Dev nD) : (dat1 V c).arrAt 3 cfg1.N = norm (V c main_v47) (V c main_v48) (V c main_v49) :=
  (dat1 V c).arrAt_eq_of_cover 3 (norm (V c main_v47) (V c main_v48) (V c main_v49)) (fun t _ => flushed_norm V c t) cover1

end Cert.KernelIdeal.Blocks
end
-- ==== Proof.RefLayer.lean ====
/-
  The reference read as three stages.  Its transformed features h = x · Wᵀ at an entry are a sum over the 256 input
  columns; its aggregated features are one function `agg` of h, the edge array and the bias (degree-normalised
  messages gathered from the source rows of h, added up at the destination rows, plus the bias row); and its result at
  (r, q) is the layer-normalised, rectified entry of row r of the aggregated features with scale and shift at column q
  (RowNorm.entry): the host's sums start from the zero word, which is the extended real 0.
-/
import proofs.«160950_j4956392259615_1_alg».proof.Proof.RefRead
import proofs.«160950_j4956392259615_1_alg».proof.Proof.LibRowNorm
import Idealize.ShloMosaic.Lib.ValueIdx
import Idealize.ShloMosaic.PureOps.Ideal.Laws

noncomputable section

namespace Cert.ReferenceIdeal.Layer

open Idealize.ShloMosaic Idealize.ShloMosaic.ValueIdx Cert.ReferenceIdeal Cert.ReferenceIdeal.Gen Cert.ReferenceIdeal.Read

variable {F : FTy → Type} [FloatOps F]

/-- An index vector with its negative entries wrapped round by the number of nodes (the host's index normalisation
    before a gather; the entries here are never negative, and nothing below depends on that). -/
def wrapIdx (s : (⟨S362500, .i32⟩ : BufTy).Contents (Elt F)) : (⟨S362500, .i32⟩ : BufTy).Contents (Elt F) :=
  select (cmpi .slt s (broadcastInDim S362500 ![] bcast_S_S362500 (constantI S_ 32 0#32)))
    (addi s (broadcastInDim S362500 ![] bcast_S_S362500 (constantI S_ 32 50000#32))) s

/-- The aggregation from its five inputs: the source and destination node of every edge (self-loops appended), the
    inverse square roots of the node degrees, the transformed features `h` and the bias `b`.  Each edge's message is
    `dinv[src] · dinv[dst]` times the source node's row of `h`; the messages are added up at their destination
    nodes; the bias row is added to every node. -/
def aggFrom (src dst : (⟨S362500, .i32⟩ : BufTy).Contents (Elt F)) (dinv : (⟨S50000, .f32⟩ : BufTy).Contents (Elt F))
    (h : (⟨S50000x256, .f32⟩ : BufTy).Contents (Elt F)) (b : (⟨S256, .f32⟩ : BufTy).Contents (Elt F)) :
    (⟨S50000x256, .f32⟩ : BufTy).Contents (Elt F) :=
  addf
    (Host.scatterAdd scatter_S50000x256_S362500x1_S362500x256_1_0_0_1
      (broadcastInDim S50000x256 ![] bcast_S_S50000x256 (constant S_ .f32 0x00000000#32))
      (broadcastInDim S362500x1 ![0] bcast_S362500_S362500x1_0 dst)
      (mulf
        (broadcastInDim S362500x256 ![0, 1] bcast_S362500x1_S362500x256_0_1
          (broadcastInDim S362500x1 ![0] bcast_S362500_S362500x1_0
            (mulf
              (Host.gather gather_S50000_S362500x1_S362500_n_0_n_n_0_1_1 dinv (broadcastInDim S362500x1 ![0] bcast_S362500_S362500x1_0 (wrapIdx src)))
              (Host.gather gather_S50000_S362500x1_S362500_n_0_n_n_0_1_1 dinv (broadcastInDim S362500x1 ![0] bcast_S362500_S362500x1_0 (wrapIdx dst))))))
        (Host.gather gather_S50000x256_S362500x1_S362500x256_1_0_n_n_0_1_1256 h (broadcastInDim S362500x1 ![0] bcast_S362500_S362500x1_0 (wrapIdx src)))))
    (broadcastInDim S50000x256 ![0, 1] bcast_S1x256_S50000x256_0_1 (broadcastInDim S1x256 ![1] bcast_S256_S1x256_1 b))

/-- The aggregation step as a function of the transformed features `h`, the edge array `x1` and the bias `x3`: the edge
    lists with their self-loops and the degree normalisation depend on the edge array only. -/
def agg (h : (⟨S50000x256, .f32⟩ : BufTy).Contents (Elt F)) (x1 : (⟨S2x312500, .i32⟩ : BufTy).Contents (Elt F))
    (x3 : (⟨S256, .f32⟩ : BufTy).Contents (Elt F)) : (⟨S50000x256, .f32⟩ : BufTy).Contents (Elt F) :=
  aggFrom (val_main_v3 (F := F) x1) (val_main_v6 (F := F) x1) (val_main_v14 (F := F) x1) h x3

/-- The reference's aggregated features are `agg` of its transformed features. -/
theorem val47_eq (x0 : (⟨S50000x256, .f32⟩ : BufTy).Contents (Elt F)) (x1 : (⟨S2x312500, .i32⟩ : BufTy).Contents (Elt F))
    (x2 : (⟨S256x256, .f32⟩ : BufTy).Contents (Elt F)) (x3 : (⟨S256, .f32⟩ : BufTy).Contents (Elt F)) :
    val_main_v47 (F := F) x0 x1 x2 x3 = agg (val_main_v31 (F := F) x0 x2) x1 x3 := by
  unfold agg aggFrom wrapIdx
  unfold val_main_v47 val_main_v46 val_main_v45 val_main_v44 val_main_v43 val_main_v42 val_main_cst_8 val_main_v41 val_main_v40 val_main_v39 val_main_v38
    val_main_v37 val_main_v36 val_main_v35 val_main_c_7 val_main_v34 val_main_v33 val_main_c_6 val_main_v32 val_main_v29 val_main_v28 val_main_v27
    val_main_v26 val_main_v25 val_main_v24 val_main_c_5 val_main_v23 val_main_v22 val_main_c_4 val_main_v21 val_main_v20 val_main_v19 val_main_v18
    val_main_v17 val_main_c_3 val_main_v16 val_main_v15 val_main_c
  rfl

/-- The reference's transformed features at `(r, q)`: row `r` of the features against column `q` of the transposed weights. -/
theorem val31_ix2 (x0 : (⟨S50000x256, .f32⟩ : BufTy).Contents (Elt Ideal)) (x2 : (⟨S256x256, .f32⟩ : BufTy).Contents (Elt Ideal))
    (r : Fin 50000) (q : Fin 256) :
    val_main_v31 (F := Ideal) x0 x2 (ix2 r q) = ∑ k : Fin 256, x0 (ix2 r k) * (val_main_v30 (F := Ideal) x2) (ix2 k q) := by
  rw [val_main_v31_apply]
  refine Finset.sum_congr rfl fun k _ => ?_
  have el : lidx_main_v31 (ix2 r q) k = ix2 r k := funext fun a => Fin.ext (by match a with | ⟨0, _⟩ => rfl | ⟨1, _⟩ => rfl)
  have er : ridx_main_v31 (ix2 r q) k = ix2 k q := funext fun a => Fin.ext (by match a with | ⟨0, _⟩ => rfl | ⟨1, _⟩ => rfl)
  rw [el, er]

/-- The reference's result at `(r, q)`: the normalised entry of row `r` of its aggregated features. -/
theorem ref_entry (x0 : (⟨S50000x256, .f32⟩ : BufTy).Contents (Elt Ideal)) (x1 : (⟨S2x312500, .i32⟩ : BufTy).Contents (Elt Ideal))
    (x2 : (⟨S256x256, .f32⟩ : BufTy).Contents (Elt Ideal)) (x3 x4 x5 : (⟨S256, .f32⟩ : BufTy).Contents (Elt Ideal))
    (r : Fin 50000) (q : Fin 256) :
    val_main_v72 (F := Ideal) x0 x1 x2 x3 x4 x5 (ix2 r q)
      = RowNorm.entry (Ideal.ofBits .f32 0x43800000#32) (Ideal.ofBits .f32 0x3727C5AC#32) (Ideal.ofBits .f32 0x00000000#32)
          (fun k : Fin 256 => val_main_v47 (F := Ideal) x0 x1 x2 x3 (ix2 r k)) (val_main_v47 (F := Ideal) x0 x1 x2 x3 (ix2 r q))
          (x4 (ix1 q)) (x5 (ix1 q)) := by
  simp only [val_main_v72_apply, val_main_v71_apply, val_main_v70_apply, val_main_v69_apply, val_main_v68_apply, val_main_v67_apply,
    val_main_v66_apply, val_main_v65_apply, val_main_v64_apply, val_main_v63_apply, val_main_v62_apply, val_main_v61_apply,
    val_main_cst_13_apply, val_main_v60_apply, val_main_v59_apply, val_main_v58_apply, val_main_v57_apply, val_main_cst_12_apply,
    val_main_v56_apply, val_main_v55_apply, val_main_cst_11_apply, val_main_v54_apply, val_main_v53_apply, val_main_v52_apply,
    val_main_v51_apply, val_main_v50_apply, val_main_cst_10_apply, val_main_v49_apply, val_main_v48_apply, val_main_cst_9_apply,
    val_main_call1_v0_apply, val_main_call1_cst_apply]
  have e1 : ∀ k : Fin 256, idx_main_v48 (idx_main_v49 (idx_main_v59 (ix2 r q))) k = ix2 r k := fun k =>
    funext fun a => Fin.ext (by match a with | ⟨0, _⟩ => rfl | ⟨1, _⟩ => rfl)
  have e2 : ∀ k : Fin 256, idx_main_v55 (idx_main_v56 (idx_main_v64 (ix2 r q))) k = ix2 r k := fun k =>
    funext fun a => Fin.ext (by match a with | ⟨0, _⟩ => rfl | ⟨1, _⟩ => rfl)
  have e3 : ∀ k k' : Fin 256, idx_main_v48 (idx_main_v49 (idx_main_v52 (ix2 r k))) k' = ix2 r k' := fun k k' =>
    funext fun a => Fin.ext (by match a with | ⟨0, _⟩ => rfl | ⟨1, _⟩ => rfl)
  have e4 : idx_main_v66 (idx_main_v67 (ix2 r q)) = ix1 q :=
    funext fun a => Fin.ext (by match a with | ⟨0, _⟩ => rfl)
  have e5 : idx_main_v69 (idx_main_v70 (ix2 r q)) = ix1 q :=
    funext fun a => Fin.ext (by match a with | ⟨0, _⟩ => rfl)
  have hsum : ∀ s : EReal, FloatOps.ofBits (F := Ideal) FTy.f32 0x00000000#32 + s = s := fun s => by
    rw [show FloatOps.ofBits (F := Ideal) FTy.f32 0x00000000#32 = (0 : EReal) from Ideal.ofBits_zero_f32, zero_add]
  simp only [e1, e2, e3, e4, e5, hsum]
  rfl

end Cert.ReferenceIdeal.Layer
end
-- ==== Proof.HostChain.lean ====
/-
  The host operations of the idealized kernel, read.  Before the first region @main transposes the weights.  Between
  the regions it builds the edge lists with their self-loops, the node degrees and their inverse square roots (first
  stretch), selects zero where a degree is not positive (the outlined `where`, second stretch), and gathers, scales,
  scatter-adds and adds the bias (third stretch); the two reshapes of the scale and shift close the third stretch.
  Each stretch is read over an arbitrary valuation of the buffers, one result at a time, and the results are the
  reference's own stage functions of the same inputs.
-/
import proofs.«160950_j4956392259615_1_alg».proof.Proof.Gen.KernelIdeal.Frame
import proofs.«160950_j4956392259615_1_alg».proof.Proof.RefLayer
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_v14 val_main_cst_2 val_main_v30)

/-- What is left of a fold of host operations where a result sits inside an operand list: each operation's result at
    its own buffer, any other buffer untouched. -/
local macro "results_loop" : tactic => `(tactic| repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)))

section Stretches

variable (Z : Valuation τ sig (Elt Ideal))

/-! ## First stretch: edge lists, degrees -/

theorem s1_src : StableHlo.after hostOps1 Z (Proc.devRef .tc main_v5) = val_main_v3 (F := Ideal) (Z (Proc.devRef .tc main_arg1)) := by
  after_results_simp
  results_loop
  rfl

theorem s1_dst : StableHlo.after hostOps1 Z (Proc.devRef .tc main_v8) = val_main_v6 (F := Ideal) (Z (Proc.devRef .tc main_arg1)) := by
  after_results_simp
  results_loop
  rfl

theorem s1_pos : StableHlo.after hostOps1 Z (Proc.devRef .tc main_v14) = val_main_v12 (F := Ideal) (Z (Proc.devRef .tc main_arg1)) := by
  after_results_simp
  results_loop
  rfl

theorem s1_rsqrt : StableHlo.after hostOps1 Z (Proc.devRef .tc main_v15) = Cert.ReferenceIdeal.Read.val_main_v13 (F := Ideal) (Z (Proc.devRef .tc main_arg1)) := by
  after_results_simp
  results_loop
  rfl

theorem s1_zero : StableHlo.after hostOps1 Z (Proc.devRef .tc main_cst_2) = val_main_cst_2 (F := Ideal) := by
  after_results_simp
  try rfl

theorem s1_h : StableHlo.after hostOps1 Z (Proc.devRef .tc main_v1) = Z (Proc.devRef .tc main_v1) := by
  after_results_simp

theorem s1_b : StableHlo.after hostOps1 Z (Proc.devRef .tc main_arg3) = Z (Proc.devRef .tc main_arg3) := by
  after_results_simp

/-! ## Second stretch: zero where the degree is not positive -/

theorem s2_dinv : StableHlo.after hostOps1_1 Z (Proc.devRef .tc main_v16)
    = select (Z (Proc.devRef .tc main_v14) : (⟨S50000, .i1⟩ : BufTy).Contents (Elt Ideal)) (Z (Proc.devRef .tc main_v15) : (⟨S50000, .f32⟩ : BufTy).Contents (Elt Ideal))
        (broadcastInDim S50000 ![] bcast_S_S50000 (id (Z (Proc.devRef .tc main_cst_2) : (⟨S_, .f32⟩ : BufTy).Contents (Elt Ideal)))) := by
  after_results_simp
  try rfl

theorem s2_src : StableHlo.after hostOps1_1 Z (Proc.devRef .tc main_v5) = Z (Proc.devRef .tc main_v5) := by
  after_results_simp
theorem s2_dst : StableHlo.after hostOps1_1 Z (Proc.devRef .tc main_v8) = Z (Proc.devRef .tc main_v8) := by
  after_results_simp
theorem s2_h : StableHlo.after hostOps1_1 Z (Proc.devRef .tc main_v1) = Z (Proc.devRef .tc main_v1) := by
  after_results_simp
theorem s2_b : StableHlo.after hostOps1_1 Z (Proc.devRef .tc main_arg3) = Z (Proc.devRef .tc main_arg3) := by
  after_results_simp

/-! ## Third stretch: messages, aggregation, bias; the scale and shift as rows -/

set_option maxHeartbeats 4000000 in
theorem s3_agg : StableHlo.after hostOps1_2 Z (Proc.devRef .tc main_v47)
    = Cert.ReferenceIdeal.Layer.aggFrom (F := Ideal) (Z (Proc.devRef .tc main_v5)) (Z (Proc.devRef .tc main_v8)) (Z (Proc.devRef .tc main_v16))
        (Z (Proc.devRef .tc main_v1)) (Z (Proc.devRef .tc main_arg3)) := by
  after_results_simp
  rfl

set_option maxHeartbeats 4000000 in
theorem s3_scale : StableHlo.after hostOps1_2 Z (Proc.devRef .tc main_v48)
    = shapeCast S1x256 (Z (Proc.devRef .tc main_arg4) : (⟨S256, .f32⟩ : BufTy).Contents (Elt Ideal)) shapeCasts_S256_S1x256 := by
  after_results_simp
  rfl

set_option maxHeartbeats 4000000 in
theorem s3_shift : StableHlo.after hostOps1_2 Z (Proc.devRef .tc main_v49)
    = shapeCast S1x256 (Z (Proc.devRef .tc main_arg5) : (⟨S256, .f32⟩ : BufTy).Contents (Elt Ideal)) shapeCasts_S256_S1x256 := by
  after_results_simp
  rfl

theorem s1_scale : StableHlo.after hostOps1 Z (Proc.devRef .tc main_arg4) = Z (Proc.devRef .tc main_arg4) := by
  after_results_simp
theorem s1_shift : StableHlo.after hostOps1 Z (Proc.devRef .tc main_arg5) = Z (Proc.devRef .tc main_arg5) := by
  after_results_simp
theorem s2_scale : StableHlo.after hostOps1_1 Z (Proc.devRef .tc main_arg4) = Z (Proc.devRef .tc main_arg4) := by
  after_results_simp
theorem s2_shift : StableHlo.after hostOps1_1 Z (Proc.devRef .tc main_arg5) = Z (Proc.devRef .tc main_arg5) := by
  after_results_simp

end Stretches

section Run

variable (m : (ℓ : Loc nD τ sig) → Buf (Elt Ideal) ℓ) (ρ : Dev nD → PrngReg)

/-- The first region is entered with the feature argument as launched. -/
theorem V1_arg0 (c : Dev nD) : V1 m ρ c main_arg0 = m ((c : Thread nD τ).loc main_arg0) := by
  show StableHlo.after hostOps0 (W0 m ρ c) (Proc.devRef .tc main_arg0) = _
  after_results

/-- The first region is entered with the weight argument transposed. -/
theorem V1_v0 (c : Dev nD) : V1 m ρ c main_v0 = val_main_v30 (F := Ideal) (m ((c : Thread nD τ).loc main_arg2)) := by
  show StableHlo.after hostOps0 (W0 m ρ c) (Proc.devRef .tc main_v0) = _
  after_results
  try rfl

/-- The first region leaves the other arguments as launched. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! The buffers the third stretch reads, after the first two. -/

theorem W4_src (c : Dev nD) : W4 m ρ c (Proc.devRef .tc main_v5) = val_main_v3 (F := Ideal) (m ((c : Thread nD τ).loc main_arg1)) :=
  (s2_src (W3 m ρ c)).trans ((s1_src (W2 m ρ c)).trans (congrArg (val_main_v3 (F := Ideal)) (W2_arg1 m ρ c)))
theorem W4_dst (c : Dev nD) : W4 m ρ c (Proc.devRef .tc main_v8) = val_main_v6 (F := Ideal) (m ((c : Thread nD τ).loc main_arg1)) :=
  (s2_dst (W3 m ρ c)).trans ((s1_dst (W2 m ρ c)).trans (congrArg (val_main_v6 (F := Ideal)) (W2_arg1 m ρ c)))
theorem W4_h (c : Dev nD) : W4 m ρ c (Proc.devRef .tc main_v1) = W2 m ρ c (Proc.devRef .tc main_v1) :=
  (s2_h (W3 m ρ c)).trans (s1_h (W2 m ρ c))
theorem W4_b (c : Dev nD) : W4 m ρ c (Proc.devRef .tc main_arg3) = m ((c : Thread nD τ).loc main_arg3) :=
  (s2_b (W3 m ρ c)).trans ((s1_b (W2 m ρ c)).trans (W2_arg3 m ρ c))
theorem W4_scale (c : Dev nD) : W4 m ρ c (Proc.devRef .tc main_arg4) = m ((c : Thread nD τ).loc main_arg4) :=
  (s2_scale (W3 m ρ c)).trans ((s1_scale (W2 m ρ c)).trans (W2_arg4 m ρ c))
theorem W4_shift (c : Dev nD) : W4 m ρ c (Proc.devRef .tc main_arg5) = m ((c : Thread nD τ).loc main_arg5) :=
  (s2_shift (W3 m ρ c)).trans ((s1_shift (W2 m ρ c)).trans (W2_arg5 m ρ c))

/-- The inverse square roots of the degrees, zero where a degree is not positive: the reference's `where`. -/
theorem W4_dinv (c : Dev nD) : W4 m ρ c (Proc.devRef .tc main_v16) = val_main_v14 (F := Ideal) (m ((c : Thread nD τ).loc main_arg1)) := by
  have e14 : W3 m ρ c (Proc.devRef .tc main_v14) = val_main_v12 (F := Ideal) (m ((c : Thread nD τ).loc main_arg1)) :=
    (s1_pos (W2 m ρ c)).trans (congrArg (val_main_v12 (F := Ideal)) (W2_arg1 m ρ c))
  have e15 : W3 m ρ c (Proc.devRef .tc main_v15) = val_main_v13 (F := Ideal) (m ((c : Thread nD τ).loc main_arg1)) :=
    (s1_rsqrt (W2 m ρ c)).trans (congrArg (val_main_v13 (F := Ideal)) (W2_arg1 m ρ c))
  have ec : W3 m ρ c (Proc.devRef .tc main_cst_2) = val_main_cst_2 (F := Ideal) := s1_zero (W2 m ρ c)
  refine (s2_dinv (W3 m ρ c)).trans ?_
  rw [e14, e15, ec]
  rfl

/-- The second region is entered with the aggregation of what the first region left. -/
theorem V5_v47 (c : Dev nD) : V5 m ρ c main_v47
    = Cert.ReferenceIdeal.Layer.agg (F := Ideal) (W2 m ρ c (Proc.devRef .tc main_v1)) (m ((c : Thread nD τ).loc main_arg1)) (m ((c : Thread nD τ).loc main_arg3)) := by
  refine (s3_agg (W4 m ρ c)).trans ?_
  rw [W4_src, W4_dst, W4_dinv, W4_h, W4_b]
  rfl

/-- … and with the scale and shift arguments as [1, 256] rows. -/
theorem V5_v48 (c : Dev nD) : V5 m ρ c main_v48 = shapeCast S1x256 (m ((c : Thread nD τ).loc main_arg4)) shapeCasts_S256_S1x256 := by
  refine (s3_scale (W4 m ρ c)).trans ?_
  rw [W4_scale]
theorem V5_v49 (c : Dev nD) : V5 m ρ c main_v49 = shapeCast S1x256 (m ((c : Thread nD τ).loc main_arg5)) shapeCasts_S256_S1x256 := by
  refine (s3_shift (W4 m ρ c)).trans ?_
  rw [W4_shift]

end Run

end Cert.KernelIdeal.HostSide

end
-- ==== Proof.KernelRun.lean ====
/-
  The idealized kernel's run with its result named.  The program is six segments — the weight transpose, the matrix
  product region, three stretches of host operations (the graph aggregation), the normalisation region — and the
  library's launch theorem for such a chain ends with every unscoped buffer at the last boundary's contents.  Read at
  the result buffer those contents are what the second region's write-backs leave; read at an argument they are the
  launch contents.
-/
import proofs.«160950_j4956392259615_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the second
    region's 25 write-backs leave of the contents it was entered with, and the arguments as launched. -/
theorem run_named : θ_run defs (onTc (τ := τ) (main (F := F))) ⟨m, fun _ => 0, ρ⟩ (fun r => ∀ c : Dev nD,
      r.2.mem ((c.tc : Thread nD τ).loc main_v50) = (dat1 (V5 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v50 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.Bridge.lean ====
/-
  The two programs compute one function.  The idealized kernel ends with its result array at the normalisation (second
  region) of the aggregation (the host operations between the regions) of the matrix product (first region) of the
  features with the transposed weights; the idealized reference computes the same three stages on the host.  The
  aggregation is the same list of operations on both sides and is never opened: it is applied to two arrays that are
  equal entry by entry, each entry of either being the sum over k of x(r, k) · W(q, k).  The normalised entries agree
  because a lane sum and a host sum from the zero word are the same sum, and a division, a reciprocal square root and
  a maximum are the same operations on the extended reals on the vector unit and on the host.  Sums are only reordered
  by name (the same finite index set), so no entry has to be finite and the precondition is not used.
-/
import proofs.«160950_j4956392259615_1_alg».proof.Proof.ProductArray
import proofs.«160950_j4956392259615_1_alg».proof.Proof.NormArray
import proofs.«160950_j4956392259615_1_alg».proof.Proof.HostChain
import proofs.«160950_j4956392259615_1_alg».proof.Proof.KernelRun
import proofs.«160950_j4956392259615_1_alg».proof.Proof.RefLayer
import Idealize.ShloMosaic.Lib.ValueLayout

noncomputable section

namespace Cert.Bridge

open Idealize.ShloMosaic Idealize.ShloMosaic.TcCoe Idealize.ShloMosaic.ValueIdx Idealize.SL.Sem
open Cert.KernelIdeal Cert.KernelIdeal.Gen
open Cert.ReferenceIdeal.Read (val_main_v30 val_main_v31 val_main_v47 val_main_v72)

/-- The layer as one function of the six arguments: the rows of `agg (x · Wᵀ)` normalised, scaled by `x4`, shifted by
    `x5` and rectified. -/
def layer (x0 : S50000x256.Idx → EReal) (x1 : (⟨S2x312500, .i32⟩ : BufTy).Contents (Elt Ideal)) (x2 : S256x256.Idx → EReal)
    (x3 x4 x5 : S256.Idx → EReal) : S50000x256.Idx → EReal :=
  Blocks.norm (Cert.ReferenceIdeal.Layer.agg (F := Ideal) (Blocks.prod x0 (val_main_v30 (F := Ideal) x2)) x1 x3)
    (shapeCast S1x256 x4 shapeCasts_S256_S1x256) (shapeCast S1x256 x5 shapeCasts_S256_S1x256)

variable (m : (ℓ : Loc nD τ sig) → Buf (Elt Ideal) ℓ) (ρ : Dev nD → PrngReg)

/-- What the second region's write-backs leave in the result buffer is `layer` of the launch arguments. -/
theorem kernel_result (c : Dev nD) : (dat1 (V5 m ρ) c).arrAt 3 cfg1.N
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  have h1 : W2 m ρ c (Proc.devRef .tc main_v1)
      = Blocks.prod (m ((c.tc : Thread nD τ).loc main_arg0)) (val_main_v30 (F := Ideal) (m ((c.tc : Thread nD τ).loc main_arg2))) :=
    (W2_arr m ρ c 2).trans ((Blocks.final_prod (V1 m ρ) c).trans (by rw [HostSide.V1_arg0, HostSide.V1_v0]))
  rw [Blocks.final_norm (V5 m ρ) c, HostSide.V5_v47, HostSide.V5_v48, HostSide.V5_v49, h1]
  rfl

/-- The idealized kernel's run: the result buffer ends at `layer` of the arguments, the arguments as launched. -/
theorem kernel_run : θ_run defs (onTc (τ := τ) (main (F := Ideal))) ⟨m, fun _ => 0, ρ⟩ (fun r => ∀ c : Dev nD,
      r.2.mem ((c.tc : Thread nD τ).loc main_v50)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_result m ρ c), (h c).2⟩) (Run.run_named m ρ)

/-- The reference's transformed features are the product the first region computes. -/
theorem val31_eq_prod (x0 : S50000x256.Idx → EReal) (x2 : S256x256.Idx → EReal) :
    val_main_v31 (F := Ideal) x0 x2 = Blocks.prod x0 (val_main_v30 (F := Ideal) x2) := by
  funext i
  obtain ⟨r, q, rfl⟩ : ∃ (r : Fin 50000) (q : Fin 256), i = ix2 r q := ⟨i 0, i 1, eq_ix2 i⟩
  rw [Cert.ReferenceIdeal.Layer.val31_ix2, Blocks.prod_ix2]

/-- The reference's result is `layer` of its arguments. -/
theorem ref_result (x0 : S50000x256.Idx → EReal) (x1 : (⟨S2x312500, .i32⟩ : BufTy).Contents (Elt Ideal)) (x2 : S256x256.Idx → EReal)
    (x3 x4 x5 : S256.Idx → EReal) :
    val_main_v72 (F := Ideal) x0 x1 x2 x3 x4 x5 = layer x0 x1 x2 x3 x4 x5 := by
  funext i
  obtain ⟨r, q, rfl⟩ : ∃ (r : Fin 50000) (q : Fin 256), i = ix2 r q := ⟨i 0, i 1, eq_ix2 i⟩
  rw [Cert.ReferenceIdeal.Layer.ref_entry, Cert.ReferenceIdeal.Layer.val47_eq, val31_eq_prod]
  unfold layer
  rw [Blocks.norm_ix2, shapeCast_a_1a_apply, shapeCast_a_1a_apply]

end Cert.Bridge

end
-- ==== Proof.lean ====
/-
  Equivalence of the graph-convolution layer kernel with its reference on the extended reals.

  Both programs compute, for features x : [50000, 256], an edge array, weights W : [256, 256], a bias and the scale and
  shift of a layer normalisation, the array  relu(LayerNorm(agg(x · Wᵀ) ; scale, shift)),  where `agg` gathers each
  edge's source row, weights it by the symmetric degree normalisation, adds the messages up at the destination rows
  (self-loops included) and adds the bias.  The kernel computes x · Wᵀ in one tiled region (bf16 operands, which on the
  extended reals are the operands themselves), runs `agg` on the host, and normalises and rectifies in a second tiled
  region; the reference does all three on the host.

  The three frames: the word-level kernel's and the idealized kernel's are the generated frame certificates; the
  reference's is its run with the result dropped.  Nothing was rewritten by the idealization, so `preserves` is
  trivial.  The algebraic claim: the idealized kernel's run ends with its result at `Bridge.layer` of the arguments
  (`Bridge.kernel_run`), the reference's run at its composed term, which is the same function (`Bridge.ref_result`)
  of arguments that agree.
-/
import proofs.«160950_j4956392259615_1_alg».proof.Defs
import proofs.«160950_j4956392259615_1_alg».proof.Proof.Gen.Kernel
import proofs.«160950_j4956392259615_1_alg».proof.Proof.Gen.Kernel.Skeleton
import proofs.«160950_j4956392259615_1_alg».proof.Proof.Gen.Kernel.Launch
import proofs.«160950_j4956392259615_1_alg».proof.Proof.Gen.Kernel.Points
import proofs.«160950_j4956392259615_1_alg».proof.Proof.Gen.Kernel.Frame
import proofs.«160950_j4956392259615_1_alg».proof.Proof.Gen.KernelIdeal
import proofs.«160950_j4956392259615_1_alg».proof.Proof.Gen.KernelIdeal.Skeleton
import proofs.«160950_j4956392259615_1_alg».proof.Proof.Gen.KernelIdeal.Launch
import proofs.«160950_j4956392259615_1_alg».proof.Proof.Gen.KernelIdeal.Points
import proofs.«160950_j4956392259615_1_alg».proof.Proof.Gen.KernelIdeal.Frame
import proofs.«160950_j4956392259615_1_alg».proof.Proof.Gen.ReferenceIdeal
import proofs.«160950_j4956392259615_1_alg».proof.Proof.Gen.Pre_finite_inputs
import proofs.«160950_j4956392259615_1_alg».proof.Proof.RefRun
import proofs.«160950_j4956392259615_1_alg».proof.Proof.RefRead
import proofs.«160950_j4956392259615_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both programs end with their results at `Bridge.layer` of them. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v72_eq, Cert.Bridge.ref_result, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
